-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x2048x64 : Shape := ⟨4, ![4, 16, 2048, 64]⟩
abbrev S_ : Shape := ⟨0, ![]⟩

class Facts : Prop where
  bcast_S_S4x16x2048x64 : S_.BroadcastsInDim S4x16x2048x64 (![] : Fin 0 → Fin S4x16x2048x64.rank)
  reducesTo_S4x16x2048x64_S_d0_1_2_3 : S4x16x2048x64.ReducesTo [0, 1, 2, 3] S_
  h_S_ : 0 < S_.numel

variable [Facts]

def fn {F : FTy → Type} [FloatOps F] (main_arg0 : FVec F S4x16x2048x64 .f32) (main_arg1 : FVec F S4x16x2048x64 .f32) (main_arg2 : FVec F S4x16x2048x64 .f32) : IVec S_ 1 :=
  let main_v0 : FVec F S4x16x2048x64 .f32 := Host.absf main_arg0
  let main_cst : FVec F S_ .f32 := constant S_ .f32 0x7F800000#32
  let main_v1 : FVec F S4x16x2048x64 .f32 := broadcastInDim S4x16x2048x64 ![] bcast_S_S4x16x2048x64 main_cst
  let main_v2 : IVec S4x16x2048x64 1 := cmpf .olt main_v0 main_v1
  let main_c : IVec S_ 1 := constantI S_ 1 1#1
  let main_v3 : IVec S_ 1 := (fun x v => Host.reduce IntOp.andi x v reducesTo_S4x16x2048x64_S_d0_1_2_3 h_S_) main_v2 main_c
  let main_v4 : FVec F S4x16x2048x64 .f32 := Host.absf main_arg1
  let main_cst_0 : FVec F S_ .f32 := constant S_ .f32 0x7F800000#32
  let main_v5 : FVec F S4x16x2048x64 .f32 := broadcastInDim S4x16x2048x64 ![] bcast_S_S4x16x2048x64 main_cst_0
  let main_v6 : IVec S4x16x2048x64 1 := cmpf .olt main_v4 main_v5
  let main_c_1 : IVec S_ 1 := constantI S_ 1 1#1
  let main_v7 : IVec S_ 1 := (fun x v => Host.reduce IntOp.andi x v reducesTo_S4x16x2048x64_S_d0_1_2_3 h_S_) main_v6 main_c_1
  let main_v8 : IVec S_ 1 := andi main_v3 main_v7
  let main_v9 : FVec F S4x16x2048x64 .f32 := Host.absf main_arg2
  let main_cst_2 : FVec F S_ .f32 := constant S_ .f32 0x7F800000#32
  let main_v10 : FVec F S4x16x2048x64 .f32 := broadcastInDim S4x16x2048x64 ![] bcast_S_S4x16x2048x64 main_cst_2
  let main_v11 : IVec S4x16x2048x64 1 := cmpf .olt main_v9 main_v10
  let main_c_3 : IVec S_ 1 := constantI S_ 1 1#1
  let main_v12 : IVec S_ 1 := (fun x v => Host.reduce IntOp.andi x v reducesTo_S4x16x2048x64_S_d0_1_2_3 h_S_) main_v11 main_c_3
  let main_v13 : IVec S_ 1 := andi main_v8 main_v12
  main_v13
-- ==== Kernel.lean ====
abbrev S4x16x2048x64 : Shape := ⟨4, ![4, 16, 2048, 64]⟩
abbrev S64x2048x64 : Shape := ⟨3, ![64, 2048, 64]⟩
abbrev S64x2048x2048 : Shape := ⟨3, ![64, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S2048x64 : Shape := ⟨2, ![2048, 64]⟩
abbrev S512x64 : Shape := ⟨2, ![512, 64]⟩
abbrev S512x2048 : Shape := ⟨2, ![512, 2048]⟩
abbrev S512 : Shape := ⟨1, ![512]⟩
abbrev S512x1 : Shape := ⟨2, ![512, 1]⟩
abbrev S4x16x2048x2048 : Shape := ⟨4, ![4, 16, 2048, 2048]⟩

abbrev nBuf : Space → Nat
  | .hbm => 10
  | .vmem => 12
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S64x2048x64, .f32⟩
  | .hbm, ⟨4, _⟩ => ⟨S64x2048x64, .f32⟩
  | .hbm, ⟨5, _⟩ => ⟨S64x2048x64, .f32⟩
  | .hbm, ⟨6, _⟩ => ⟨S64x2048x64, .f32⟩
  | .hbm, ⟨7, _⟩ => ⟨S64x2048x2048, .f32⟩
  | .hbm, ⟨8, _⟩ => ⟨S4x16x2048x64, .f32⟩
  | .hbm, ⟨9, _⟩ => ⟨S4x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | .local _ .vmem, ⟨10, _⟩ => ⟨S2048x64, .bf16⟩
  | .local _ .vmem, ⟨11, _⟩ => ⟨S2048x64, .bf16⟩
  | _, _ => ⟨S4x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![64, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x16x2048x64_S64x2048x64 : S4x16x2048x64.ShapeCasts S64x2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  reduces_S512x2048_S512 : S512x2048.Reduces [1] S512
  shapeCasts_S512_S512x1 : S512.ShapeCasts S512x1
  broadcasts_S512x1_S512x2048 : S512x1.Broadcasts S512x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S512x64_S1x512x64 : S512x64.ShapeCasts S1x512x64
  shapeCasts_S64x2048x64_S4x16x2048x64 : S64x2048x64.ShapeCasts S4x16x2048x64
  shapeCasts_S64x2048x2048_S4x16x2048x2048 : S64x2048x2048.ShapeCasts S4x16x2048x2048
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x2048x64.size a
  hwx0_0 : ∀ i : grid0.Coords, EltTy.bits .f32 = 32 ∨ (Rect.block (s := S64x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S64x2048x64.size a
  hwx0_1 : ∀ i : grid0.Coords, EltTy.bits .f32 = 32 ∨ (Rect.block (s := S64x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S64x2048x64.size a
  hwx0_2 : ∀ i : grid0.Coords, EltTy.bits .f32 = 32 ∨ (Rect.block (s := S64x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S64x2048x64.size a
  hwx0_3 : ∀ i : grid0.Coords, EltTy.bits .f32 = 32 ∨ (Rect.block (s := S64x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S64x2048x2048.size a
  hwx0_4 : ∀ i : grid0.Coords, EltTy.bits .f32 = 32 ∨ (Rect.block (s := S64x2048x2048) S1x512x2048.size (cc0_transform_4 i) (hinb0_4 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S4x16x2048x64, .f32⟩
  | .hbm, ⟨1, _⟩ => ⟨S4x16x2048x64, .f32⟩
  | .hbm, ⟨2, _⟩ => ⟨S4x16x2048x64, .f32⟩
  | .hbm, ⟨3, _⟩ => ⟨S4x16x2048x2048, .f32⟩
  | .hbm, ⟨4, _⟩ => ⟨S_, .f32⟩
  | .hbm, ⟨5, _⟩ => ⟨S4x16x2048, .f32⟩
  | .hbm, ⟨6, _⟩ => ⟨S_, .f32⟩
  | .hbm, ⟨7, _⟩ => ⟨S4x16x2048, .f32⟩
  | .hbm, ⟨8, _⟩ => ⟨S4x16x2048, .f32⟩
  | .hbm, ⟨9, _⟩ => ⟨S4x16x2048x1, .f32⟩
  | .hbm, ⟨10, _⟩ => ⟨S4x16x2048x2048, .f32⟩
  | .hbm, ⟨11, _⟩ => ⟨S4x16x2048x2048, .f32⟩
  | .hbm, ⟨12, _⟩ => ⟨S4x16x2048x2048, .f32⟩
  | .hbm, ⟨13, _⟩ => ⟨S_, .f32⟩
  | .hbm, ⟨14, _⟩ => ⟨S4x16x2048, .f32⟩
  | .hbm, ⟨15, _⟩ => ⟨S4x16x2048x1, .f32⟩
  | .hbm, ⟨16, _⟩ => ⟨S4x16x2048x2048, .f32⟩
  | .hbm, ⟨17, _⟩ => ⟨S4x16x2048x2048, .f32⟩
  | .hbm, ⟨18, _⟩ => ⟨S4x16x2048x64, .f32⟩
  | _, _ => ⟨S4x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.Pieces.lean ====
/-
  What one grid point leaves in each buffer, as a value.

  A grid point (bh, qi) of the attention kernel handles query rows 512·qi … 512·qi + 511 of head bh. At qi = 0 it
  first copies the head's K and V matrices (cast to bf16) into two buffers that persist across the four points of the
  head; at qi > 0 it finds them there. In both cases it then writes the 512 × 2048 block of softmax weights and the
  512 × 64 block of the context. Each buffer is written by ONE store covering it, so what it holds afterwards is that
  store's value: a pure function of the blocks read. These lemmas name that function for each buffer and each case,
  for any float model.
-/
import proofs.«164368_j76295799046779_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Blocks

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-! ## A later point of a head (qi > 0): K and V come from the persistent buffers -/

/-- The softmax block of a later point: computed from the query block and the cached K. -/
theorem softmaxBlock_cached (c : Dev nD) (i : grid0.Coords) (a2 : Memref sig .tc .vmem S1x512x64 .f32) (h2 : a2.IsWhole) (a3 : Memref sig .tc .vmem S1x2048x64 .f32) (h3 : a3.IsWhole) (a4 : Memref sig .tc .vmem S1x2048x64 .f32) (h4 : a4.IsWhole) (a5 : Memref sig .tc .vmem S1x512x64 .f32) (h5 : a5.IsWhole) (a6 : Memref sig .tc .vmem S1x512x2048 .f32) (h6 : a6.IsWhole) (a7 : Memref sig .tc .vmem S2048x64 .bf16) (h7 : a7.IsWhole) (a8 : Memref sig .tc .vmem S2048x64 .bf16) (h8 : a8.IsWhole) (hc : ¬cond0_0 i) (x0 : Vec F S1x512x64 .f32) (x1 : Vec F S1x2048x64 .f32) (x2 : Vec F S1x2048x64 .f32) (xs0 xs1 : Vec F S2048x64 .bf16) :
    out0_B_4 c i a2 h2 a3 h3 a4 h4 a5 h5 a6 h6 a7 h7 a8 h8 hc x0 x1 x2 xs0 xs1 = k0_pay4 x0 xs0 := by
  unfold out0_B_4
  rw [View.read_writes_eq_canon _ _ _ (cover0_B_4 c i a2 h2 a3 h3 a4 h4 a5 h5 a6 h6 a7 h7 a8 h8 hc x0 x1 x2 xs0 xs1)]
  unfold kernelRun0_B
  dsimp only
  rw [View.canon_unit_zero hz3]
  simp only [View.readAt_eq_ld, h2.read_unread, h7.read_unread, View.ld_unit_zero (S := S1x512x64) hz3,
    View.ld_unit_zero (S := S2048x64) hz2]

/-- The context block of a later point: computed from the query block and the cached K and V. -/
theorem contextBlock_cached (c : Dev nD) (i : grid0.Coords) (a2 : Memref sig .tc .vmem S1x512x64 .f32) (h2 : a2.IsWhole) (a3 : Memref sig .tc .vmem S1x2048x64 .f32) (h3 : a3.IsWhole) (a4 : Memref sig .tc .vmem S1x2048x64 .f32) (h4 : a4.IsWhole) (a5 : Memref sig .tc .vmem S1x512x64 .f32) (h5 : a5.IsWhole) (a6 : Memref sig .tc .vmem S1x512x2048 .f32) (h6 : a6.IsWhole) (a7 : Memref sig .tc .vmem S2048x64 .bf16) (h7 : a7.IsWhole) (a8 : Memref sig .tc .vmem S2048x64 .bf16) (h8 : a8.IsWhole) (hc : ¬cond0_0 i) (x0 : Vec F S1x512x64 .f32) (x1 : Vec F S1x2048x64 .f32) (x2 : Vec F S1x2048x64 .f32) (xs0 xs1 : Vec F S2048x64 .bf16) :
    out0_B_3 c i a2 h2 a3 h3 a4 h4 a5 h5 a6 h6 a7 h7 a8 h8 hc x0 x1 x2 xs0 xs1 = k0_pay5 x0 xs0 xs1 := by
  unfold out0_B_3
  rw [View.read_writes_eq_canon _ _ _ (cover0_B_3 c i a2 h2 a3 h3 a4 h4 a5 h5 a6 h6 a7 h7 a8 h8 hc x0 x1 x2 xs0 xs1)]
  unfold kernelRun0_B
  dsimp only
  rw [View.canon_unit_zero hz3]
  simp only [View.readAt_eq_ld, h2.read_unread, h7.read_unread, h8.read_unread, View.ld_unit_zero (S := S1x512x64) hz3,
    View.ld_unit_zero (S := S2048x64) hz2]

/-! ## The first point of a head (qi = 0): K and V are cast and cached, then used -/

/-- The K buffer after the first point of a head: the head's K block, cast. -/
theorem keyCache_fresh (c : Dev nD) (i : grid0.Coords) (a2 : Memref sig .tc .vmem S1x512x64 .f32) (h2 : a2.IsWhole) (a3 : Memref sig .tc .vmem S1x2048x64 .f32) (h3 : a3.IsWhole) (a4 : Memref sig .tc .vmem S1x2048x64 .f32) (h4 : a4.IsWhole) (a5 : Memref sig .tc .vmem S1x512x64 .f32) (h5 : a5.IsWhole) (a6 : Memref sig .tc .vmem S1x512x2048 .f32) (h6 : a6.IsWhole) (a7 : Memref sig .tc .vmem S2048x64 .bf16) (h7 : a7.IsWhole) (a8 : Memref sig .tc .vmem S2048x64 .bf16) (h8 : a8.IsWhole) (hc : cond0_0 i) (x0 : Vec F S1x512x64 .f32) (x1 : Vec F S1x2048x64 .f32) (x2 : Vec F S1x2048x64 .f32) :
    sout0_A_0 c i a2 h2 a3 h3 a4 h4 a5 h5 a6 h6 a7 h7 a8 h8 hc x0 x1 x2 = k0_pay1 x1 := by
  unfold sout0_A_0
  rw [View.read_writes_eq_canon _ _ _ (scover0_A_0 c i a2 h2 a3 h3 a4 h4 a5 h5 a6 h6 a7 h7 a8 h8 hc x0 x1 x2)]
  unfold kernelRun0_A
  dsimp only
  sl_unfold_words
  rw [View.canon_unit_zero hz2]
  simp only [View.readAt_eq_ld, h3.read_unread, View.ld_unit_zero (S := S1x2048x64) hz3]

/-- The V buffer after the first point of a head: the head's V block, cast. -/
theorem valueCache_fresh (c : Dev nD) (i : grid0.Coords) (a2 : Memref sig .tc .vmem S1x512x64 .f32) (h2 : a2.IsWhole) (a3 : Memref sig .tc .vmem S1x2048x64 .f32) (h3 : a3.IsWhole) (a4 : Memref sig .tc .vmem S1x2048x64 .f32) (h4 : a4.IsWhole) (a5 : Memref sig .tc .vmem S1x512x64 .f32) (h5 : a5.IsWhole) (a6 : Memref sig .tc .vmem S1x512x2048 .f32) (h6 : a6.IsWhole) (a7 : Memref sig .tc .vmem S2048x64 .bf16) (h7 : a7.IsWhole) (a8 : Memref sig .tc .vmem S2048x64 .bf16) (h8 : a8.IsWhole) (hc : cond0_0 i) (x0 : Vec F S1x512x64 .f32) (x1 : Vec F S1x2048x64 .f32) (x2 : Vec F S1x2048x64 .f32) :
    sout0_A_1 c i a2 h2 a3 h3 a4 h4 a5 h5 a6 h6 a7 h7 a8 h8 hc x0 x1 x2 = k0_pay2 x2 := by
  unfold sout0_A_1
  rw [View.read_writes_eq_canon _ _ _ (scover0_A_1 c i a2 h2 a3 h3 a4 h4 a5 h5 a6 h6 a7 h7 a8 h8 hc x0 x1 x2)]
  unfold kernelRun0_A
  dsimp only
  sl_unfold_words
  rw [View.canon_unit_zero hz2]
  simp only [View.readAt_eq_ld, h4.read_unread, View.ld_unit_zero (S := S1x2048x64) hz3]

/-- The softmax block of the first point of a head: the K it multiplies by is the cast block just stored. -/
theorem softmaxBlock_fresh (c : Dev nD) (i : grid0.Coords) (a2 : Memref sig .tc .vmem S1x512x64 .f32) (h2 : a2.IsWhole) (a3 : Memref sig .tc .vmem S1x2048x64 .f32) (h3 : a3.IsWhole) (a4 : Memref sig .tc .vmem S1x2048x64 .f32) (h4 : a4.IsWhole) (a5 : Memref sig .tc .vmem S1x512x64 .f32) (h5 : a5.IsWhole) (a6 : Memref sig .tc .vmem S1x512x2048 .f32) (h6 : a6.IsWhole) (a7 : Memref sig .tc .vmem S2048x64 .bf16) (h7 : a7.IsWhole) (a8 : Memref sig .tc .vmem S2048x64 .bf16) (h8 : a8.IsWhole) (hc : cond0_0 i) (x0 : Vec F S1x512x64 .f32) (x1 : Vec F S1x2048x64 .f32) (x2 : Vec F S1x2048x64 .f32) :
    out0_A_4 c i a2 h2 a3 h3 a4 h4 a5 h5 a6 h6 a7 h7 a8 h8 hc x0 x1 x2 = k0_pay4 x0 (k0_pay1 x1) := by
  unfold out0_A_4
  rw [View.read_writes_eq_canon _ _ _ (cover0_A_4 c i a2 h2 a3 h3 a4 h4 a5 h5 a6 h6 a7 h7 a8 h8 hc x0 x1 x2)]
  unfold kernelRun0_A
  dsimp only
  sl_unfold_words
  rw [View.canon_unit_zero hz3, View.readCov_unit_zero (S := S2048x64) _ hz2]
  simp only [View.readAt_eq_ld, h2.read_unread, h3.read_unread, View.ld_unit_zero (S := S1x512x64) hz3,
    View.ld_unit_zero (S := S1x2048x64) hz3]

/-- The context block of the first point of a head, likewise over the K and V blocks just stored. -/
theorem contextBlock_fresh (c : Dev nD) (i : grid0.Coords) (a2 : Memref sig .tc .vmem S1x512x64 .f32) (h2 : a2.IsWhole) (a3 : Memref sig .tc .vmem S1x2048x64 .f32) (h3 : a3.IsWhole) (a4 : Memref sig .tc .vmem S1x2048x64 .f32) (h4 : a4.IsWhole) (a5 : Memref sig .tc .vmem S1x512x64 .f32) (h5 : a5.IsWhole) (a6 : Memref sig .tc .vmem S1x512x2048 .f32) (h6 : a6.IsWhole) (a7 : Memref sig .tc .vmem S2048x64 .bf16) (h7 : a7.IsWhole) (a8 : Memref sig .tc .vmem S2048x64 .bf16) (h8 : a8.IsWhole) (hc : cond0_0 i) (x0 : Vec F S1x512x64 .f32) (x1 : Vec F S1x2048x64 .f32) (x2 : Vec F S1x2048x64 .f32) :
    out0_A_3 c i a2 h2 a3 h3 a4 h4 a5 h5 a6 h6 a7 h7 a8 h8 hc x0 x1 x2 = k0_pay5 x0 (k0_pay1 x1) (k0_pay2 x2) := by
  unfold out0_A_3
  rw [View.read_writes_eq_canon _ _ _ (cover0_A_3 c i a2 h2 a3 h3 a4 h4 a5 h5 a6 h6 a7 h7 a8 h8 hc x0 x1 x2)]
  unfold kernelRun0_A
  dsimp only
  sl_unfold_words
  rw [View.canon_unit_zero hz3, View.readCov_unit_zero (S := S2048x64) _ hz2, View.readCov_unit_zero (S := S2048x64) _ hz2]
  simp only [View.readAt_eq_ld, h2.read_unread, h3.read_unread, h4.read_unread, View.ld_unit_zero (S := S1x512x64) hz3,
    View.ld_unit_zero (S := S1x2048x64) hz3]

end Cert.KernelIdeal.Blocks

end
-- ==== Proof.Spec.lean ====
/-
  Dense attention, one query row at a time, on the extended reals.

  For a query row q ∈ ℝ̄⁶⁴ and one head's key and value matrices K, V ∈ ℝ̄^{2048 × 64}:
    score k   = ∑_d q_d · K_{k,d}
    peak      = max over k of score k, the maximum started from the f32 pattern of −∞
    weight k  = exp (score k − peak)
    mass      = ∑_k weight k
    attn k    = weight k / mass                       (the softmax of the row of scores)
    ctx d     = ∑_k attn k · V_{k,d}
  Both programs compute exactly these, in this order of operations; they differ only in how the rows and heads are laid
  out in arrays and in the order sums are accumulated, which the extended reals do not see. Nothing here needs the
  inputs to be finite.
-/
import Idealize.ShloMosaic.PureOps.Ideal
import Idealize.ShloMosaic.Lib.ValueIdx
import Mathlib.Data.Finset.Fold

noncomputable section

namespace Cert.Attn

open Idealize.ShloMosaic

/-- One head's key or value matrix: 2048 rows of 64 entries. -/
abbrev Mat := Fin 2048 → Fin 64 → EReal

/-- The value a row maximum starts from: the f32 pattern of −∞, kept as its word (it is the same word in both programs,
    so it is never evaluated). -/
def floor : EReal := Ideal.ofBits .f32 0xFF800000#32

/-- The largest entry of a row of scores (not below `floor`). -/
def peak (s : Fin 2048 → EReal) : EReal := (Finset.univ : Finset (Fin 2048)).fold max floor s

/-- The unnormalised softmax weight of entry `k`. -/
def weight (s : Fin 2048 → EReal) (k : Fin 2048) : EReal := Ideal.exp (s k - peak s)

/-- The row's normaliser. -/
def mass (s : Fin 2048 → EReal) : EReal := ∑ k : Fin 2048, weight s k

/-- The softmax of a row of scores. -/
def softmax (s : Fin 2048 → EReal) (k : Fin 2048) : EReal := Ideal.div (weight s k) (mass s)

/-- The scores of a query row against every key. -/
def score (qv : Fin 64 → EReal) (Km : Mat) (k : Fin 2048) : EReal := ∑ d : Fin 64, qv d * Km k d

/-- The attention weights of a query row. -/
def attn (qv : Fin 64 → EReal) (Km : Mat) (k : Fin 2048) : EReal := softmax (score qv Km) k

/-- The context vector of a query row. -/
def ctx (qv : Fin 64 → EReal) (Km Vm : Mat) (d : Fin 64) : EReal := ∑ k : Fin 2048, attn qv Km k * Vm k d

/-- A maximum that starts from `floor` is not below it, so taking the larger of the two again changes nothing. -/
theorem max_floor_peak (s : Fin 2048 → EReal) : max floor (peak s) = peak s :=
  max_eq_right ((Finset.le_fold_max _).mpr (Or.inl le_rfl))

/-! ## The same, laid out as the 4-D arrays both programs take and return -/

open Idealize.ShloMosaic.ValueIdx

/-- A [4, 16, 2048, 64] array: batch, head, row, entry. -/
abbrev Arr4 := (⟨4, ![4, 16, 2048, 64]⟩ : Shape).Idx → EReal

/-- Query row `q` of head (b, h). -/
def headRow (X : Arr4) (b : Fin 4) (h : Fin 16) (q : Fin 2048) : Fin 64 → EReal := fun d => X (ix4 b h q d)

/-- Head (b, h) as a matrix. -/
def head (X : Arr4) (b : Fin 4) (h : Fin 16) : Mat := fun k d => X (ix4 b h k d)

/-- The attention weight of query row q of head (b, h) for key k. -/
def attnAt (Q K : Arr4) (b : Fin 4) (h : Fin 16) (q k : Fin 2048) : EReal := attn (headRow Q b h q) (head K b h) k

/-- Entry d of the context vector of query row q of head (b, h). -/
def ctxAt (Q K V : Arr4) (b : Fin 4) (h : Fin 16) (q : Fin 2048) (d : Fin 64) : EReal :=
  ctx (headRow Q b h q) (head K b h) (head V b h) d

/-- The [4, 16, 2048, 2048] array of attention weights. -/
def attnArr (Q K : Arr4) : (⟨4, ![4, 16, 2048, 2048]⟩ : Shape).Idx → EReal := fun i =>
  attnAt Q K ⟨(i 0).val, (i 0).isLt⟩ ⟨(i 1).val, (i 1).isLt⟩ ⟨(i 2).val, (i 2).isLt⟩ ⟨(i 3).val, (i 3).isLt⟩

/-- The [4, 16, 2048, 64] array of context vectors. -/
def ctxArr (Q K V : Arr4) : (⟨4, ![4, 16, 2048, 64]⟩ : Shape).Idx → EReal := fun i =>
  ctxAt Q K V ⟨(i 0).val, (i 0).isLt⟩ ⟨(i 1).val, (i 1).isLt⟩ ⟨(i 2).val, (i 2).isLt⟩ ⟨(i 3).val, (i 3).isLt⟩

theorem attnArr_ix4 (Q K : Arr4) (b : Fin 4) (h : Fin 16) (q k : Fin 2048) :
    attnArr Q K (ix4 b h q k) = attnAt Q K b h q k := rfl

theorem ctxArr_ix4 (Q K V : Arr4) (b : Fin 4) (h : Fin 16) (q : Fin 2048) (d : Fin 64) :
    ctxArr Q K V (ix4 b h q d) = ctxAt Q K V b h q d := rfl

end Cert.Attn

end
-- ==== Proof.LibKeepdims.lean ====
/-
  Two layout operations of a row reduction kept as a column (`keepdims=True`), read at an index given by coordinates:
  a vector of length `a` recast as an `a × 1` column, and an `a × 1` column broadcast across `b` columns.
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The kernel's arithmetic at one grid point, read entry by entry on the extended reals.

  With the point's 512 query rows `x0` and the head's K and V matrices as the persistent buffers hold them, the block of
  softmax weights the point stores is, in row r and column k, the attention weight `attn` of query row r for key k, and
  the context block is, in row r and column d, entry d of that row's context vector. The casts to bf16 are the identity
  on the extended reals; the two matrix products are plain sums over the contracted index; the row maximum and row sum
  are the fold and the sum over the row; the `keepdims` column and its broadcast put each row's number back beside every
  entry of the row.
-/
import proofs.«164368_j76295799046779_2_alg».proof.Proof.Gen.KernelIdeal.Skeleton
import proofs.«164368_j76295799046779_2_alg».proof.Proof.Spec
import proofs.«164368_j76295799046779_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.Arith

open Cert.KernelIdeal Cert.KernelIdeal.Gen Cert.Attn

/-- Row `r` of a block of 512 query rows. -/
abbrev qrow (x0 : FVec Ideal S1x512x64 .f32) (r : Fin 512) : Fin 64 → EReal := fun d => x0 (ix3 (0 : Fin 1) r d)

/-- A 2048 × 64 buffer as a matrix. -/
abbrev mat (v : FVec Ideal S2048x64 .bf16) : Mat := fun k d => v (ix2 k d)

/-! ## The cached K and V: the head's block, cast -/

theorem keyCast_apply (x1 : FVec Ideal S1x2048x64 .f32) (k : Fin 2048) (d : Fin 64) :
    k0_pay1 (F := Ideal) x1 (ix2 k d) = x1 (ix3 (0 : Fin 1) k d) := by
  unfold k0_pay1
  rw [shapeCast_self]
  exact shapeCast_1ab_ab_apply x1 shapeCasts_S1x2048x64_S2048x64 k d

theorem valueCast_apply (x2 : FVec Ideal S1x2048x64 .f32) (k : Fin 2048) (d : Fin 64) :
    k0_pay2 (F := Ideal) x2 (ix2 k d) = x2 (ix3 (0 : Fin 1) k d) := by
  unfold k0_pay2
  rw [shapeCast_self]
  exact shapeCast_1ab_ab_apply x2 shapeCasts_S1x2048x64_S2048x64 k d

/-! ## The two matrix products' operand indices

  Q·Kᵀ contracts the last axis of both operands: output (r, k) and contraction index d read Q at (r, d) and K at (k, d).
  attn·V contracts the left operand's last axis with the right operand's first: output (r, d) and contraction index k
  read the weights at (r, k) and V at (k, d). -/

theorem qk_lhs0 (j : S512x2048.Idx) (q : dot_S512x64_S2048x64_S512x2048_1_1_0_0_n_n.contr.Idx) : (dot_S512x64_S2048x64_S512x2048_1_1_0_0_n_n.lhsIdx j q 0).val = (j 0).val := by
  unfold DotDims.lhsIdx
  rw [dif_neg (show ¬(0 : Fin S512x64.rank) ∈ dot_S512x64_S2048x64_S512x2048_1_1_0_0_n_n.lhsBatch by decide),
    dif_pos (show (0 : Fin S512x64.rank) ∈ dot_S512x64_S2048x64_S512x2048_1_1_0_0_n_n.lhsNonContracting by decide)]
  rfl
theorem qk_lhs1 (j : S512x2048.Idx) (q : dot_S512x64_S2048x64_S512x2048_1_1_0_0_n_n.contr.Idx) : (dot_S512x64_S2048x64_S512x2048_1_1_0_0_n_n.lhsIdx j q 1).val = (q ⟨0, by decide⟩).val :=
  dot_S512x64_S2048x64_S512x2048_1_1_0_0_n_n.lhsIdx_val_of_single rfl j q
theorem qk_rhs0 (j : S512x2048.Idx) (q : dot_S512x64_S2048x64_S512x2048_1_1_0_0_n_n.contr.Idx) : (dot_S512x64_S2048x64_S512x2048_1_1_0_0_n_n.rhsIdx j q 0).val = (j 1).val := by
  unfold DotDims.rhsIdx
  rw [dif_neg (show ¬(0 : Fin S2048x64.rank) ∈ dot_S512x64_S2048x64_S512x2048_1_1_0_0_n_n.rhsBatch by decide),
    dif_pos (show (0 : Fin S2048x64.rank) ∈ dot_S512x64_S2048x64_S512x2048_1_1_0_0_n_n.rhsNonContracting by decide)]
  rfl
theorem qk_rhs1 (j : S512x2048.Idx) (q : dot_S512x64_S2048x64_S512x2048_1_1_0_0_n_n.contr.Idx) : (dot_S512x64_S2048x64_S512x2048_1_1_0_0_n_n.rhsIdx j q 1).val = (q ⟨0, by decide⟩).val :=
  dot_S512x64_S2048x64_S512x2048_1_1_0_0_n_n.rhsIdx_val_of_single rfl j q

theorem av_lhs0 (j : S512x64.Idx) (q : dot_S512x2048_S2048x64_S512x64_1_0_0_1_n_n.contr.Idx) : (dot_S512x2048_S2048x64_S512x64_1_0_0_1_n_n.lhsIdx j q 0).val = (j 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem av_lhs1 (j : S512x64.Idx) (q : dot_S512x2048_S2048x64_S512x64_1_0_0_1_n_n.contr.Idx) : (dot_S512x2048_S2048x64_S512x64_1_0_0_1_n_n.lhsIdx j q 1).val = (q ⟨0, by decide⟩).val :=
  dot_S512x2048_S2048x64_S512x64_1_0_0_1_n_n.lhsIdx_val_of_single rfl j q
theorem av_rhs0 (j : S512x64.Idx) (q : dot_S512x2048_S2048x64_S512x64_1_0_0_1_n_n.contr.Idx) : (dot_S512x2048_S2048x64_S512x64_1_0_0_1_n_n.rhsIdx j q 0).val = (q ⟨0, by decide⟩).val :=
  dot_S512x2048_S2048x64_S512x64_1_0_0_1_n_n.rhsIdx_val_of_single rfl j q
theorem av_rhs1 (j : S512x64.Idx) (q : dot_S512x2048_S2048x64_S512x64_1_0_0_1_n_n.contr.Idx) : (dot_S512x2048_S2048x64_S512x64_1_0_0_1_n_n.rhsIdx j q 1).val = (j 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-! ## Q·Kᵀ: the scores -/

/-- The block of scores: 512 query rows against the 2048 keys. -/
def scores (x0 : FVec Ideal S1x512x64 .f32) (v6 : FVec Ideal S2048x64 .bf16) : FVec Ideal S512x2048 .f32 :=
  matmul dot_S512x64_S2048x64_S512x2048_1_1_0_0_n_n none (truncf .bf16 (shapeCast S512x64 x0 shapeCasts_S1x512x64_S512x64) bitsLt_bf16_f32) v6
    (constant (F := Ideal) S512x2048 .f32 0x00000000#32)

/-- Entry (r, k) of the scores is the inner product of query row r and key row k. -/
theorem scores_apply (x0 : FVec Ideal S1x512x64 .f32) (v6 : FVec Ideal S2048x64 .bf16) (r : Fin 512) (k : Fin 2048) :
    scores x0 v6 (ix2 r k) = score (qrow x0 r) (mat v6) k := by
  unfold scores
  refine (Ideal.matmul_constant_zero_apply dot_S512x64_S2048x64_S512x2048_1_1_0_0_n_n none _ v6 (ix2 r k)).trans ?_
  rw [← Equiv.sum_comp (contrEquiv1 dot_S512x64_S2048x64_S512x2048_1_1_0_0_n_n 64 rfl rfl).symm]
  refine Finset.sum_congr rfl fun d _ => ?_
  have hd := contrEquiv1_symm_val dot_S512x64_S2048x64_S512x2048_1_1_0_0_n_n 64 rfl rfl d
  have el : dot_S512x64_S2048x64_S512x2048_1_1_0_0_n_n.lhsIdx (ix2 r k) ((contrEquiv1 dot_S512x64_S2048x64_S512x2048_1_1_0_0_n_n 64 rfl rfl).symm d) = ix2 r d :=
    funext fun a => Fin.ext (by
      match a with
      | ⟨0, _⟩ => exact qk_lhs0 _ _
      | ⟨1, _⟩ => exact (qk_lhs1 _ _).trans hd)
  have er : dot_S512x64_S2048x64_S512x2048_1_1_0_0_n_n.rhsIdx (ix2 r k) ((contrEquiv1 dot_S512x64_S2048x64_S512x2048_1_1_0_0_n_n 64 rfl rfl).symm d) = ix2 k d :=
    funext fun a => Fin.ext (by
      match a with
      | ⟨0, _⟩ => exact qk_rhs0 _ _
      | ⟨1, _⟩ => exact (qk_rhs1 _ _).trans hd)
  rw [el, er]
  show shapeCast S512x64 x0 shapeCasts_S1x512x64_S512x64 (ix2 r d) * v6 (ix2 k d) = x0 (ix3 (0 : Fin 1) r d) * v6 (ix2 k d)
  rw [shapeCast_1ab_ab_apply]

/-! ## The softmax of each row of a block of scores -/

/-- Each row's maximum, put back beside every entry of the row. -/
def rowPeaks (s : FVec Ideal S512x2048 .f32) : FVec Ideal S512x2048 .f32 :=
  broadcastTo S512x2048
    (shapeCast S512x1 (multiReduction .maximumf [1] S512 s 0xFF800000#32 reduces_S512x2048_S512 (.inl rfl) rfl) shapeCasts_S512_S512x1)
    broadcasts_S512x1_S512x2048

/-- The unnormalised weights. -/
def rowWeights (s : FVec Ideal S512x2048 .f32) : FVec Ideal S512x2048 .f32 := exp (subf s (rowPeaks s))

/-- Each row's normaliser, put back beside every entry of the row. -/
def rowMasses (s : FVec Ideal S512x2048 .f32) : FVec Ideal S512x2048 .f32 :=
  broadcastTo S512x2048
    (shapeCast S512x1 (multiReduction .add [1] S512 (rowWeights s) 0x00000000#32 reduces_S512x2048_S512 (.inl rfl) rfl) shapeCasts_S512_S512x1)
    broadcasts_S512x1_S512x2048

/-- Row r of a block of scores. -/
abbrev srow (s : FVec Ideal S512x2048 .f32) (r : Fin 512) : Fin 2048 → EReal := fun k => s (ix2 r k)

/-- The index the reduction along the columns visits in row r: (r, k). -/
theorem lift_row (r : Fin 512) (k : Fin 2048) : reduces_S512x2048_S512.lift (ix1 r) k = ix2 r k :=
  funext fun a => Fin.ext (by match a with | ⟨0, _⟩ => rfl | ⟨1, _⟩ => rfl)

theorem rowPeaks_apply (s : FVec Ideal S512x2048 .f32) (r : Fin 512) (k : Fin 2048) :
    rowPeaks s (ix2 r k) = peak (srow s r) := by
  unfold rowPeaks
  refine (broadcastTo_a1_ab_apply _ broadcasts_S512x1_S512x2048 r k).trans ?_
  refine (shapeCast_a_a1_apply _ shapeCasts_S512_S512x1 r 0).trans ?_
  refine (Ideal.multiReduction_maximumf_single s 0xFF800000#32 reduces_S512x2048_S512 (.inl rfl) rfl (ix1 r)).trans ?_
  unfold peak Cert.Attn.floor
  exact congrArg (fun f => (Finset.univ : Finset (Fin 2048)).fold max (Ideal.ofBits .f32 0xFF800000#32) f)
    (funext fun k' => congrArg s (lift_row r k'))

theorem rowWeights_apply (s : FVec Ideal S512x2048 .f32) (r : Fin 512) (k : Fin 2048) :
    rowWeights s (ix2 r k) = weight (srow s r) k := by
  show Ideal.exp (s (ix2 r k) - rowPeaks s (ix2 r k)) = _
  rw [rowPeaks_apply]
  rfl

theorem rowMasses_apply (s : FVec Ideal S512x2048 .f32) (r : Fin 512) (k : Fin 2048) :
    rowMasses s (ix2 r k) = mass (srow s r) := by
  unfold rowMasses
  refine (broadcastTo_a1_ab_apply _ broadcasts_S512x1_S512x2048 r k).trans ?_
  refine (shapeCast_a_a1_apply _ shapeCasts_S512_S512x1 r 0).trans ?_
  refine (Ideal.multiReduction_add_single (rowWeights s) 0x00000000#32 reduces_S512x2048_S512 (.inl rfl) rfl (ix1 r)).trans ?_
  unfold mass
  exact Finset.sum_congr rfl fun k' _ => (congrArg (rowWeights s) (lift_row r k')).trans (rowWeights_apply s r k')

/-- The block of softmax weights the point computes is the printed arithmetic over the scores. -/
theorem softmaxBlock_eq (x0 : FVec Ideal S1x512x64 .f32) (v6 : FVec Ideal S2048x64 .bf16) :
    k0_pay3 (F := Ideal) x0 v6 = divf (rowWeights (scores x0 v6)) (rowMasses (scores x0 v6)) := rfl

/-- Entry (r, k) of the block of softmax weights: the attention weight of query row r for key k. -/
theorem softmaxBlock_apply (x0 : FVec Ideal S1x512x64 .f32) (v6 : FVec Ideal S2048x64 .bf16) (r : Fin 512) (k : Fin 2048) :
    k0_pay3 (F := Ideal) x0 v6 (ix2 r k) = attn (qrow x0 r) (mat v6) k := by
  rw [softmaxBlock_eq]
  show Ideal.div (rowWeights (scores x0 v6) (ix2 r k)) (rowMasses (scores x0 v6) (ix2 r k)) = _
  rw [rowWeights_apply, rowMasses_apply]
  have e : srow (scores x0 v6) r = score (qrow x0 r) (mat v6) := funext fun k' => scores_apply x0 v6 r k'
  rw [e]
  rfl

/-- The same block with its leading unit axis, as it is stored. -/
theorem softmaxStore_apply (x0 : FVec Ideal S1x512x64 .f32) (v6 : FVec Ideal S2048x64 .bf16) (u : Fin 1) (r : Fin 512) (k : Fin 2048) :
    k0_pay4 (F := Ideal) x0 v6 (ix3 u r k) = attn (qrow x0 r) (mat v6) k := by
  unfold k0_pay4
  exact (shapeCast_ab_1ab_apply _ shapeCasts_S512x2048_S1x512x2048 u r k).trans (softmaxBlock_apply x0 v6 r k)

/-! ## attn·V: the context -/

/-- Entry (r, d) of the context block as it is stored: entry d of query row r's context vector. -/
theorem contextStore_apply (x0 : FVec Ideal S1x512x64 .f32) (v6 v7 : FVec Ideal S2048x64 .bf16) (u : Fin 1) (r : Fin 512) (d : Fin 64) :
    k0_pay5 (F := Ideal) x0 v6 v7 (ix3 u r d) = ctx (qrow x0 r) (mat v6) (mat v7) d := by
  unfold k0_pay5
  refine (shapeCast_ab_1ab_apply _ shapeCasts_S512x64_S1x512x64 u r d).trans ?_
  refine (Ideal.matmul_constant_zero_apply dot_S512x2048_S2048x64_S512x64_1_0_0_1_n_n none _ v7 (ix2 r d)).trans ?_
  rw [← Equiv.sum_comp (contrEquiv1 dot_S512x2048_S2048x64_S512x64_1_0_0_1_n_n 2048 rfl rfl).symm]
  unfold ctx
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r d) ((contrEquiv1 dot_S512x2048_S2048x64_S512x64_1_0_0_1_n_n 2048 rfl rfl).symm k) = ix2 r k :=
    funext fun a => Fin.ext (by
      match a with
      | ⟨0, _⟩ => exact av_lhs0 _ _
      | ⟨1, _⟩ => exact (av_lhs1 _ _).trans hk)
  have er : dot_S512x2048_S2048x64_S512x64_1_0_0_1_n_n.rhsIdx (ix2 r d) ((contrEquiv1 dot_S512x2048_S2048x64_S512x64_1_0_0_1_n_n 2048 rfl rfl).symm k) = ix2 k d :=
    funext fun a => Fin.ext (by
      match a with
      | ⟨0, _⟩ => exact (av_rhs0 _ _).trans hk
      | ⟨1, _⟩ => exact av_rhs1 _ _)
  rw [el, er]
  show k0_pay3 (F := Ideal) x0 v6 (ix2 r k) * v7 (ix2 k d) = _
  rw [softmaxBlock_apply]

end Cert.KernelIdeal.Arith

end
-- ==== Proof.Grid.lean ====
/-
  From grid points to arrays.

  The grid has 256 points; point t handles head g = t / 4 (of the 64 heads in row-major (batch, head) order) and the
  query rows 512·(t mod 4) … 512·(t mod 4) + 511 of that head. The K and V windows show the whole head g at every one of
  its four points. The kernel copies them into its two persistent buffers only at the first of the four, so that the
  buffers hold head g's K and V at ALL four is an invariant carried from point to point: a point with t mod 4 ≠ 0 leaves
  the buffers as it found them, and t − 1 is a point of the same head. With it, what point t leaves in its two output
  blocks is, row by row, the attention weights and the context vector of the head's query rows, and since every point
  writes its blocks back and the blocks tile the two output arrays, the arrays after the region are the attention
  weights and contexts of every head and row.
-/
import proofs.«164368_j76295799046779_2_alg».proof.Proof.Pieces
import proofs.«164368_j76295799046779_2_alg».proof.Proof.Payload
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Arith Cert.Attn

variable (m : (ℓ : Loc nD τ sig) → Buf (Elt Ideal) ℓ) (ρ : Dev nD → PrngReg)

/-! ## Where each window's block sits -/

/-- The printed index maps, decided once over the grid: the query, context and weight windows sit at block
    (t / 4, t mod 4, 0); the K and V windows at block (t / 4, 0, 0). -/
theorem idx_facts : ∀ t : Fin cfg0.N,
    (win0_0.index t (0 : Fin 3) = t.val / 4 ∧ win0_0.index t (1 : Fin 3) = t.val % 4 ∧ win0_0.index t (2 : Fin 3) = 0)
    ∧ (win0_1.index t (0 : Fin 3) = t.val / 4 ∧ win0_1.index t (1 : Fin 3) = 0 ∧ win0_1.index t (2 : Fin 3) = 0)
    ∧ (win0_2.index t (0 : Fin 3) = t.val / 4 ∧ win0_2.index t (1 : Fin 3) = 0 ∧ win0_2.index t (2 : Fin 3) = 0)
    ∧ (win0_3.index t (0 : Fin 3) = t.val / 4 ∧ win0_3.index t (1 : Fin 3) = t.val % 4 ∧ win0_3.index t (2 : Fin 3) = 0)
    ∧ (win0_4.index t (0 : Fin 3) = t.val / 4 ∧ win0_4.index t (1 : Fin 3) = t.val % 4 ∧ win0_4.index t (2 : Fin 3) = 0) :=
  (by decide +kernel : ∀ t : Fin grid0.N, _)

/-- The head a point belongs to. -/
def headOf (n : ℕ) : Fin 64 := ⟨n / 4 % 64, Nat.mod_lt _ (by decide)⟩

/-- The query row (within its head) that row `r` of the point's block is. -/
def rowOf (n : ℕ) (r : Fin 512) : Fin 2048 :=
  ⟨512 * (n % 4) + r.val, by have := r.isLt; have := Nat.mod_lt n (show 0 < 4 by decide); omega⟩

/-- The head's K matrix, V matrix and a query row, read off the three 3-D arrays as the region finds them. -/
def Khead (c : Dev nD) (n : ℕ) : Mat := fun k d => V m c main_v1 (ix3 (headOf n) k d)
def Vhead (c : Dev nD) (n : ℕ) : Mat := fun k d => V m c main_v2 (ix3 (headOf n) k d)
def Qrow (c : Dev nD) (n : ℕ) (r : Fin 512) : Fin 64 → EReal := fun d => V m c main_v0 (ix3 (headOf n) (rowOf n r) d)

/-- A point with t mod 4 ≠ 0 belongs to the head of the point before it. -/
theorem headOf_pred (n : ℕ) (h0 : ¬n % 4 = 0) : headOf (n - 1) = headOf n :=
  Fin.ext (by show (n - 1) / 4 % 64 = n / 4 % 64; omega)

/-- The query window's block at point t, entry (r, d): query row `rowOf t r` of head `headOf t`. -/
theorem qblk_apply (c : Dev nD) (t : Fin cfg0.N) (u : Fin 1) (r : Fin 512) (d : Fin 64) :
    (iblk m c 0 t : Vec Ideal S1x512x64 .f32) (ix3 u r d) = Qrow m c t.val r d := by
  have hN : t.val < 256 := lt_of_lt_of_eq t.isLt N_0
  obtain ⟨⟨e0, e1, e2⟩, -⟩ := idx_facts t
  unfold iblk Qrow
  rw [View.read_apply]
  show V m c main_v0 _ = V m c main_v0 _
  congr 1
  funext a; apply Fin.ext
  match a with
  | ⟨0, _⟩ => show win0_0.index t (0 : Fin 3) * 1 + 1 * u.val = t.val / 4 % 64; have := u.isLt; omega
  | ⟨1, _⟩ => show win0_0.index t (1 : Fin 3) * 512 + 1 * r.val = 512 * (t.val % 4) + r.val; omega
  | ⟨2, _⟩ => show win0_0.index t (2 : Fin 3) * 64 + 1 * d.val = d.val; omega

/-- The K window's block at point t: the whole K matrix of head `headOf t`. -/
theorem kblk_apply (c : Dev nD) (t : Fin cfg0.N) (u : Fin 1) (k : Fin 2048) (d : Fin 64) :
    (iblk m c 1 t : Vec Ideal S1x2048x64 .f32) (ix3 u k d) = Khead m c t.val k d := by
  have hN : t.val < 256 := lt_of_lt_of_eq t.isLt N_0
  obtain ⟨-, ⟨e0, e1, e2⟩, -⟩ := idx_facts t
  unfold iblk Khead
  rw [View.read_apply]
  show V m c main_v1 _ = V m c main_v1 _
  congr 1
  funext a; apply Fin.ext
  match a with
  | ⟨0, _⟩ => show win0_1.index t (0 : Fin 3) * 1 + 1 * u.val = t.val / 4 % 64; have := u.isLt; omega
  | ⟨1, _⟩ => show win0_1.index t (1 : Fin 3) * 2048 + 1 * k.val = k.val; omega
  | ⟨2, _⟩ => show win0_1.index t (2 : Fin 3) * 64 + 1 * d.val = d.val; omega

/-- The V window's block at point t: the whole V matrix of head `headOf t`. -/
theorem vblk_apply (c : Dev nD) (t : Fin cfg0.N) (u : Fin 1) (k : Fin 2048) (d : Fin 64) :
    (iblk m c 2 t : Vec Ideal S1x2048x64 .f32) (ix3 u k d) = Vhead m c t.val k d := by
  have hN : t.val < 256 := lt_of_lt_of_eq t.isLt N_0
  obtain ⟨-, -, ⟨e0, e1, e2⟩, -⟩ := idx_facts t
  unfold iblk Vhead
  rw [View.read_apply]
  show V m c main_v2 _ = V m c main_v2 _
  congr 1
  funext a; apply Fin.ext
  match a with
  | ⟨0, _⟩ => show win0_2.index t (0 : Fin 3) * 1 + 1 * u.val = t.val / 4 % 64; have := u.isLt; omega
  | ⟨1, _⟩ => show win0_2.index t (1 : Fin 3) * 2048 + 1 * k.val = k.val; omega
  | ⟨2, _⟩ => show win0_2.index t (2 : Fin 3) * 64 + 1 * d.val = d.val; omega

/-! ## What the four buffers hold after a point -/

/-- After point n: the context block and the weight block hold, row by row, the context vector and the attention
    weights of the head's query rows, and the two persistent buffers hold the head's K and V. -/
def Holds (c : Dev nD) (n : ℕ) (o : Vec Ideal S1x512x64 .f32 × Vec Ideal S1x512x2048 .f32 × Vec Ideal S2048x64 .bf16 × Vec Ideal S2048x64 .bf16) : Prop :=
  (∀ (u : Fin 1) (r : Fin 512) (d : Fin 64), o.1 (ix3 u r d) = ctx (Qrow m c n r) (Khead m c n) (Vhead m c n) d)
  ∧ (∀ (u : Fin 1) (r : Fin 512) (k : Fin 2048), o.2.1 (ix3 u r k) = attn (Qrow m c n r) (Khead m c n) k)
  ∧ (∀ (k : Fin 2048) (d : Fin 64), o.2.2.1 (ix2 k d) = Khead m c n k d)
  ∧ (∀ (k : Fin 2048) (d : Fin 64), o.2.2.2 (ix2 k d) = Vhead m c n k d)

/-- A point that finds the head's K and V in the persistent buffers leaves the right blocks, and the buffers as they were. -/
theorem holds_cached (c : Dev nD) (n : ℕ) (x0 : Vec Ideal S1x512x64 .f32) (xs0 xs1 : Vec Ideal S2048x64 .bf16)
    (hx0 : ∀ (u : Fin 1) (r : Fin 512) (d : Fin 64), x0 (ix3 u r d) = Qrow m c n r d)
    (hs0 : ∀ (k : Fin 2048) (d : Fin 64), xs0 (ix2 k d) = Khead m c n k d)
    (hs1 : ∀ (k : Fin 2048) (d : Fin 64), xs1 (ix2 k d) = Vhead m c n k d) :
    Holds m c n (k0_pay5 (F := Ideal) x0 xs0 xs1, k0_pay4 (F := Ideal) x0 xs0, xs0, xs1) := by
  have eq : ∀ r, qrow x0 r = Qrow m c n r := fun r => funext fun d => hx0 0 r d
  have ek : mat xs0 = Khead m c n := funext fun k => funext fun d => hs0 k d
  have ev : mat xs1 = Vhead m c n := funext fun k => funext fun d => hs1 k d
  refine ⟨fun u r d => ?_, fun u r k => ?_, hs0, hs1⟩
  · show k0_pay5 (F := Ideal) x0 xs0 xs1 (ix3 u r d) = _
    rw [contextStore_apply, eq, ek, ev]
  · show k0_pay4 (F := Ideal) x0 xs0 (ix3 u r k) = _
    rw [softmaxStore_apply, eq, ek]

/-- The first point of a head: it caches the head's K and V (their casts are the identity here) and uses them. -/
theorem holds_fresh (c : Dev nD) (n : ℕ) (x0 : Vec Ideal S1x512x64 .f32) (x1 x2 : Vec Ideal S1x2048x64 .f32)
    (hx0 : ∀ (u : Fin 1) (r : Fin 512) (d : Fin 64), x0 (ix3 u r d) = Qrow m c n r d)
    (hx1 : ∀ (u : Fin 1) (k : Fin 2048) (d : Fin 64), x1 (ix3 u k d) = Khead m c n k d)
    (hx2 : ∀ (u : Fin 1) (k : Fin 2048) (d : Fin 64), x2 (ix3 u k d) = Vhead m c n k d) :
    Holds m c n (k0_pay5 (F := Ideal) x0 (k0_pay1 (F := Ideal) x1) (k0_pay2 (F := Ideal) x2),
      k0_pay4 (F := Ideal) x0 (k0_pay1 (F := Ideal) x1), k0_pay1 (F := Ideal) x1, k0_pay2 (F := Ideal) x2) :=
  holds_cached m c n x0 (k0_pay1 (F := Ideal) x1) (k0_pay2 (F := Ideal) x2) hx0
    (fun k d => (keyCast_apply x1 k d).trans (hx1 0 k d)) (fun k d => (valueCast_apply x2 k d).trans (hx2 0 k d))

/-- At the first point of a head the invariant is established. -/
theorem holds_at_fresh (c : Dev nD) (t : Fin cfg0.N) (h0 : t.val % 4 = 0) : Holds m c t.val (outsAt0 m c t.val t.isLt) := by
  rw [outsAt0_A m c t h0,
    contextBlock_fresh (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t),
    softmaxBlock_fresh (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t),
    keyCache_fresh (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t),
    valueCache_fresh (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t)]
  exact holds_fresh m c t.val (iblk m c 0 t) (iblk m c 1 t) (iblk m c 2 t) (qblk_apply m c t) (kblk_apply m c t) (vblk_apply m c t)

/-- At a later point of a head the invariant is carried over from the point before. -/
theorem holds_at_cached (c : Dev nD) (t : Fin cfg0.N) (h0 : ¬t.val % 4 = 0)
    (ih : Holds m c (t.val - 1) (outsAt0 m c (t.val - 1) (Nat.lt_of_le_of_lt (Nat.sub_le _ _) t.isLt))) :
    Holds m c t.val (outsAt0 m c t.val t.isLt) := by
  rw [outsAt0_B m c t h0,
    contextBlock_cached (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2,
    softmaxBlock_cached (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2]
  have eh := headOf_pred t.val h0
  refine holds_cached m c t.val (iblk m c 0 t) (outsAt0 m c (t.val - 1) (Nat.lt_of_le_of_lt (Nat.sub_le _ _) t.isLt)).2.2.1 (outsAt0 m c (t.val - 1) (Nat.lt_of_le_of_lt (Nat.sub_le _ _) t.isLt)).2.2.2 (qblk_apply m c t) (fun k d => ?_) (fun k d => ?_)
  · refine (ih.2.2.1 k d).trans ?_
    unfold Khead; rw [eh]
  · refine (ih.2.2.2 k d).trans ?_
    unfold Vhead; rw [eh]

/-- The invariant holds after every point, by induction on the point. -/
theorem outsAt_holds (c : Dev nD) : ∀ (n : ℕ) (h : n < cfg0.N), Holds m c n (outsAt0 m c n h) := by
  intro n
  induction n with
  | zero => intro h; exact holds_at_fresh m c ⟨0, h⟩ rfl
  | succ n ih =>
    intro h
    by_cases h0 : (n + 1) % 4 = 0
    · exact holds_at_fresh m c ⟨n + 1, h⟩ h0
    · exact holds_at_cached m c ⟨n + 1, h⟩ h0 (ih (Nat.lt_of_succ_lt h))

end Cert.KernelIdeal.Blocks

end
-- ==== Proof.Arrays.lean ====
/-
  The two arrays the region leaves.

  Every point writes its context block and its weight block back; point t's blocks are rows
  512·(t mod 4) … 512·(t mod 4) + 511 of head t / 4, so entry (g, q, ·) of either array lies in the block of point
  4·g + q / 512, and the 256 blocks tile the arrays. Hence after the region the weight array holds at (g, q, k) the
  attention weight of query row q of head g for key k, and the context array at (g, q, d) entry d of that row's context
  vector, with heads and rows read off the three 3-D input arrays.
-/
import proofs.«164368_j76295799046779_2_alg».proof.Proof.Grid
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.KernelIdeal.Arith Cert.Attn

variable (m : (ℓ : Loc nD τ sig) → Buf (Elt Ideal) ℓ) (ρ : Dev nD → PrngReg)

/-- Attention weights over the 3-D arrays: head g, query row q, key k. -/
def attn3At (c : Dev nD) (g : Fin 64) (q k : Fin 2048) : EReal :=
  attn (fun d => V m c main_v0 (ix3 g q d)) (fun k' d => V m c main_v1 (ix3 g k' d)) k

/-- Context vectors over the 3-D arrays: head g, query row q, entry d. -/
def ctx3At (c : Dev nD) (g : Fin 64) (q : Fin 2048) (d : Fin 64) : EReal :=
  ctx (fun d' => V m c main_v0 (ix3 g q d')) (fun k d' => V m c main_v1 (ix3 g k d')) (fun k d' => V m c main_v2 (ix3 g k d')) d

/-- The [64, 2048, 2048] array of attention weights. -/
def attn3 (c : Dev nD) : S64x2048x2048.Idx → EReal := fun j =>
  attn3At m c ⟨(j 0).val, (j 0).isLt⟩ ⟨(j 1).val, (j 1).isLt⟩ ⟨(j 2).val, (j 2).isLt⟩

/-- The [64, 2048, 64] array of context vectors. -/
def ctx3 (c : Dev nD) : S64x2048x64.Idx → EReal := fun j =>
  ctx3At m c ⟨(j 0).val, (j 0).isLt⟩ ⟨(j 1).val, (j 1).isLt⟩ ⟨(j 2).val, (j 2).isLt⟩

theorem attn3_ix3 (c : Dev nD) (g : Fin 64) (q k : Fin 2048) : attn3 m c (ix3 g q k) = attn3At m c g q k := rfl
theorem ctx3_ix3 (c : Dev nD) (g : Fin 64) (q : Fin 2048) (d : Fin 64) : ctx3 m c (ix3 g q d) = ctx3At m c g q d := rfl

/-! ## What a point writes back -/

/-- Point t writes back block t of the weight array. -/
theorem flushed_attn (c : Dev nD) (t : Fin cfg0.N) :
    (dats m 0 c).flushed 4 t = ((cfg0.win 4).blk t).view.read (Elt Ideal) (attn3 m c) := by
  have hN : t.val < 256 := lt_of_lt_of_eq t.isLt N_0
  obtain ⟨-, -, -, -, ⟨e0, e1, e2⟩⟩ := idx_facts t
  show (cfg0.win 4).cut (grid0.coords t) ((dats m 0 c).after 4 t) = _
  rw [after0_4]
  funext y
  obtain ⟨u, r, k, rfl⟩ : ∃ (u : Fin 1) (r : Fin 512) (k : Fin 2048), y = ix3 u r k := ⟨y 0, y 1, y 2, eq_ix3 y⟩
  have hE : ((cfg0.win 4).blk t).view.emb (ix3 u r k) = ix3 (headOf t.val) (rowOf t.val r) k := by
    funext a; apply Fin.ext
    match a with
    | ⟨0, _⟩ => show win0_4.index t (0 : Fin 3) * 1 + 1 * u.val = t.val / 4 % 64; have := u.isLt; omega
    | ⟨1, _⟩ => show win0_4.index t (1 : Fin 3) * 512 + 1 * r.val = 512 * (t.val % 4) + r.val; omega
    | ⟨2, _⟩ => show win0_4.index t (2 : Fin 3) * 2048 + 1 * k.val = k.val; omega
  show (outsAt0 m c t.val t.isLt).2.1 (ix3 u r k) = attn3 m c (((cfg0.win 4).blk t).view.emb (ix3 u r k))
  rw [hE, attn3_ix3]
  exact (outsAt_holds m c t.val t.isLt).2.1 u r k

/-- Point t writes back block t of the context array. -/
theorem flushed_ctx (c : Dev nD) (t : Fin cfg0.N) :
    (dats m 0 c).flushed 3 t = ((cfg0.win 3).blk t).view.read (Elt Ideal) (ctx3 m c) := by
  have hN : t.val < 256 := lt_of_lt_of_eq t.isLt N_0
  obtain ⟨-, -, -, ⟨e0, e1, e2⟩, -⟩ := idx_facts t
  show (cfg0.win 3).cut (grid0.coords t) ((dats m 0 c).after 3 t) = _
  rw [after0_3]
  funext y
  obtain ⟨u, r, d, rfl⟩ : ∃ (u : Fin 1) (r : Fin 512) (d : Fin 64), y = ix3 u r d := ⟨y 0, y 1, y 2, eq_ix3 y⟩
  have hE : ((cfg0.win 3).blk t).view.emb (ix3 u r d) = ix3 (headOf t.val) (rowOf t.val r) d := by
    funext a; apply Fin.ext
    match a with
    | ⟨0, _⟩ => show win0_3.index t (0 : Fin 3) * 1 + 1 * u.val = t.val / 4 % 64; have := u.isLt; omega
    | ⟨1, _⟩ => show win0_3.index t (1 : Fin 3) * 512 + 1 * r.val = 512 * (t.val % 4) + r.val; omega
    | ⟨2, _⟩ => show win0_3.index t (2 : Fin 3) * 64 + 1 * d.val = d.val; omega
  show (outsAt0 m c t.val t.isLt).1 (ix3 u r d) = ctx3 m c (((cfg0.win 3).blk t).view.emb (ix3 u r d))
  rw [hE, ctx3_ix3]
  exact (outsAt_holds m c t.val t.isLt).1 u r d

/-! ## The blocks tile the arrays -/

/-- An index of the weight array is in point t's block iff each coordinate is in the block's range on its axis. -/
theorem mem_blk_attn (t : Fin cfg0.N) (i : S64x2048x2048.Idx) :
    i ∈ ((cfg0.win 4).blk t).view.set ↔ ∀ a : Fin 3, win0_4.index t a * S1x512x2048.size a ≤ (i a).val ∧ (i a).val < win0_4.index t a * S1x512x2048.size a + S1x512x2048.size a := by
  show i ∈ ((View.whole main_v3_1).slice (win0_4.rect t)).set ↔ _
  rw [View.set_slice_whole, Rect.mem_set_unit]
  exact Iff.rfl

/-- The same for the context array. -/
theorem mem_blk_ctx (t : Fin cfg0.N) (i : S64x2048x64.Idx) :
    i ∈ ((cfg0.win 3).blk t).view.set ↔ ∀ a : Fin 3, win0_3.index t a * S1x512x64.size a ≤ (i a).val ∧ (i a).val < win0_3.index t a * S1x512x64.size a + S1x512x64.size a := by
  show i ∈ ((View.whole main_v3_0).slice (win0_3.rect t)).set ↔ _
  rw [View.set_slice_whole, Rect.mem_set_unit]
  exact Iff.rfl

/-- The point whose blocks hold rows of head g around query row q: 4·g + q / 512. -/
def pointOf (g q : ℕ) (hg : g < 64) (hq : q < 2048) : Fin cfg0.N :=
  ⟨4 * g + q / 512, by rw [show cfg0.N = 256 from N_0]; omega⟩

theorem cover_attn (i : S64x2048x2048.Idx) :
    ∃ t : Fin cfg0.N, (cfg0.win 4).flush t = true ∧ i ∈ ((cfg0.win 4).blk t).view.set := by
  have h0 : (i 0).val < 64 := (i 0).isLt
  have h1 : (i 1).val < 2048 := (i 1).isLt
  have h2 : (i 2).val < 2048 := (i 2).isLt
  refine ⟨pointOf (i 0).val (i 1).val h0 h1, flush0_4 _, ?_⟩
  rw [mem_blk_attn]
  obtain ⟨-, -, -, -, ⟨e0, e1, e2⟩⟩ := idx_facts (pointOf (i 0).val (i 1).val h0 h1)
  have ht : (pointOf (i 0).val (i 1).val h0 h1).val = 4 * (i 0).val + (i 1).val / 512 := rfl
  intro a
  match a with
  | ⟨0, _⟩ =>
    show win0_4.index _ (0 : Fin 3) * 1 ≤ (i 0).val ∧ (i 0).val < win0_4.index _ (0 : Fin 3) * 1 + 1
    rw [e0, ht]; omega
  | ⟨1, _⟩ =>
    show win0_4.index _ (1 : Fin 3) * 512 ≤ (i 1).val ∧ (i 1).val < win0_4.index _ (1 : Fin 3) * 512 + 512
    rw [e1, ht]; omega
  | ⟨2, _⟩ =>
    show win0_4.index _ (2 : Fin 3) * 2048 ≤ (i 2).val ∧ (i 2).val < win0_4.index _ (2 : Fin 3) * 2048 + 2048
    rw [e2]; omega

theorem cover_ctx (i : S64x2048x64.Idx) :
    ∃ t : Fin cfg0.N, (cfg0.win 3).flush t = true ∧ i ∈ ((cfg0.win 3).blk t).view.set := by
  have h0 : (i 0).val < 64 := (i 0).isLt
  have h1 : (i 1).val < 2048 := (i 1).isLt
  have h2 : (i 2).val < 64 := (i 2).isLt
  refine ⟨pointOf (i 0).val (i 1).val h0 h1, flush0_3 _, ?_⟩
  rw [mem_blk_ctx]
  obtain ⟨-, -, -, ⟨e0, e1, e2⟩, -⟩ := idx_facts (pointOf (i 0).val (i 1).val h0 h1)
  have ht : (pointOf (i 0).val (i 1).val h0 h1).val = 4 * (i 0).val + (i 1).val / 512 := rfl
  intro a
  match a with
  | ⟨0, _⟩ =>
    show win0_3.index _ (0 : Fin 3) * 1 ≤ (i 0).val ∧ (i 0).val < win0_3.index _ (0 : Fin 3) * 1 + 1
    rw [e0, ht]; omega
  | ⟨1, _⟩ =>
    show win0_3.index _ (1 : Fin 3) * 512 ≤ (i 1).val ∧ (i 1).val < win0_3.index _ (1 : Fin 3) * 512 + 512
    rw [e1, ht]; omega
  | ⟨2, _⟩ =>
    show win0_3.index _ (2 : Fin 3) * 64 ≤ (i 2).val ∧ (i 2).val < win0_3.index _ (2 : Fin 3) * 64 + 64
    rw [e2]; omega

/-! ## The arrays after the region -/

theorem final_attn (c : Dev nD) : (dats m 0 c).arrAt 4 cfg0.N = attn3 m c :=
  (dats m 0 c).arrAt_eq_of_cover 4 (attn3 m c) (fun t _ => flushed_attn m c t) cover_attn

theorem final_ctx (c : Dev nD) : (dats m 0 c).arrAt 3 cfg0.N = ctx3 m c :=
  (dats m 0 c).arrAt_eq_of_cover 3 (ctx3 m c) (fun t _ => flushed_ctx m c t) cover_ctx

end Cert.KernelIdeal.Blocks

end
-- ==== Proof.LibHeadReshape.lean ====
/-
  Merging and splitting the two leading axes of a [4, 16, n, m] array: as a [64, n, m] array, entry (16·b + h, q, d) is
  entry (b, h, q, d) — both sit at the same row-major position.
-/
import Idealize.ShloMosaic.Lib.Pipeline.Value
import Idealize.ShloMosaic.Lib.ValueIdx

namespace Idealize.ShloMosaic.ValueIdx

open Idealize.ShloMosaic

variable {α : Type}

/-- Head (b, h) of sixteen per batch entry is head number 16·b + h of the 64. -/
def mergedHead (b : Fin 4) (h : Fin 16) : Fin 64 := ⟨16 * b.val + h.val, by have := b.isLt; have := h.isLt; omega⟩

/-- A `[4, 16, n, m]` array cast to `[64, n, m]` reads, at `(16·b + h, q, d)`, the operand at `(b, h, q, d)`. -/
theorem shapeCast_merge_heads_apply {n m : ℕ} (X : (⟨4, ![4, 16, n, m]⟩ : Shape).Idx → α)
    (hc : (⟨4, ![4, 16, n, m]⟩ : Shape).ShapeCasts ⟨3, ![64, n, m]⟩) (b : Fin 4) (h : Fin 16) (q : Fin n) (d : Fin m) :
    shapeCast ⟨3, ![64, n, m]⟩ X hc (ix3 (mergedHead b h) q d) = X (ix4 b h q d) :=
  shapeCast_apply X hc _ _ (by
    rw [Shape.rowMajor_val_four, Shape.rowMajor_val_three]
    show ((b.val * 16 + h.val) * n + q.val) * m + d.val = ((16 * b.val + h.val) * n + q.val) * m + d.val
    rw [Nat.mul_comm b.val 16])

/-- A `[64, n, m]` array cast to `[4, 16, n, m]` reads, at `(b, h, q, d)`, the operand at `(16·b + h, q, d)`. -/
theorem shapeCast_split_heads_apply {n m : ℕ} (Y : (⟨3, ![64, n, m]⟩ : Shape).Idx → α)
    (hc : (⟨3, ![64, n, m]⟩ : Shape).ShapeCasts ⟨4, ![4, 16, n, m]⟩) (b : Fin 4) (h : Fin 16) (q : Fin n) (d : Fin m) :
    shapeCast ⟨4, ![4, 16, n, m]⟩ Y hc (ix4 b h q d) = Y (ix3 (mergedHead b h) q d) :=
  shapeCast_apply Y hc _ _ (by
    rw [Shape.rowMajor_val_four, Shape.rowMajor_val_three]
    show ((16 * b.val + h.val) * n + q.val) * m + d.val = ((b.val * 16 + h.val) * n + q.val) * m + d.val
    rw [Nat.mul_comm b.val 16])

end Idealize.ShloMosaic.ValueIdx
-- ==== Proof.Result.lean ====
/-
  The kernel's two results as functions of its three arguments.

  Around the region @main only re-lays arrays out: Q, K and V [4, 16, 2048, 64] are viewed as [64, 2048, 64] (head
  16·b + h of 64) before it, and the region's two arrays are viewed back as [4, 16, 2048, ·] after it. Reading those
  views at an index turns the region's arrays — attention weights and context vectors per head number and row — into
  the specification's arrays per (batch, head) and row.
-/
import proofs.«164368_j76295799046779_2_alg».proof.Proof.Arrays
import proofs.«164368_j76295799046779_2_alg».proof.Proof.LibHeadReshape
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Blocks Cert.Attn

variable (m : (ℓ : Loc nD τ sig) → Buf (Elt Ideal) ℓ) (ρ : Dev nD → PrngReg)

/-! ## Before the region: the three arguments with their two leading axes merged -/

theorem Q3_eq (c : Dev nD) : (V m c main_v0 : S64x2048x64.Idx → EReal)
    = shapeCast S64x2048x64 (m ((c : Thread nD τ).loc main_arg0)) shapeCasts_S4x16x2048x64_S64x2048x64 := by
  show StableHlo.after hostOps0 (fun b => m (c, b)) (Proc.devRef .tc main_v0) = _
  after_results
  rfl

theorem K3_eq (c : Dev nD) : (V m c main_v1 : S64x2048x64.Idx → EReal)
    = shapeCast S64x2048x64 (m ((c : Thread nD τ).loc main_arg1)) shapeCasts_S4x16x2048x64_S64x2048x64 := by
  show StableHlo.after hostOps0 (fun b => m (c, b)) (Proc.devRef .tc main_v1) = _
  after_results
  rfl

theorem V3_eq (c : Dev nD) : (V m c main_v2 : S64x2048x64.Idx → EReal)
    = shapeCast S64x2048x64 (m ((c : Thread nD τ).loc main_arg2)) shapeCasts_S4x16x2048x64_S64x2048x64 := by
  show StableHlo.after hostOps0 (fun b => m (c, b)) (Proc.devRef .tc main_v2) = _
  after_results
  rfl

/-- Head number 16·b + h of the merged arrays is head (b, h) of the arguments: its query rows, -/
theorem qrow_merged (c : Dev nD) (b : Fin 4) (h : Fin 16) (q : Fin 2048) :
    (fun d => V m c main_v0 (ix3 (mergedHead b h) q d)) = headRow (m ((c : Thread nD τ).loc main_arg0)) b h q := by
  funext d
  rw [Q3_eq]
  exact shapeCast_merge_heads_apply _ shapeCasts_S4x16x2048x64_S64x2048x64 b h q d

/-- its K matrix, -/
theorem khead_merged (c : Dev nD) (b : Fin 4) (h : Fin 16) :
    (fun k d => V m c main_v1 (ix3 (mergedHead b h) k d)) = head (m ((c : Thread nD τ).loc main_arg1)) b h := by
  funext k d
  rw [K3_eq]
  exact shapeCast_merge_heads_apply _ shapeCasts_S4x16x2048x64_S64x2048x64 b h k d

/-- and its V matrix. -/
theorem vhead_merged (c : Dev nD) (b : Fin 4) (h : Fin 16) :
    (fun k d => V m c main_v2 (ix3 (mergedHead b h) k d)) = head (m ((c : Thread nD τ).loc main_arg2)) b h := by
  funext k d
  rw [V3_eq]
  exact shapeCast_merge_heads_apply _ shapeCasts_S4x16x2048x64_S64x2048x64 b h k d

theorem attn3At_merged (c : Dev nD) (b : Fin 4) (h : Fin 16) (q k : Fin 2048) :
    attn3At m c (mergedHead b h) q k = attnAt (m ((c : Thread nD τ).loc main_arg0)) (m ((c : Thread nD τ).loc main_arg1)) b h q k := by
  unfold attn3At attnAt
  rw [qrow_merged, khead_merged]

theorem ctx3At_merged (c : Dev nD) (b : Fin 4) (h : Fin 16) (q : Fin 2048) (d : Fin 64) :
    ctx3At m c (mergedHead b h) q d = ctxAt (m ((c : Thread nD τ).loc main_arg0)) (m ((c : Thread nD τ).loc main_arg1)) (m ((c : Thread nD τ).loc main_arg2)) b h q d := by
  unfold ctx3At ctxAt
  rw [qrow_merged, khead_merged, vhead_merged]

/-! ## After the region: the two arrays with the leading axis split again -/

/-- The region's weight array as the lines after the region find it. -/
theorem region_attn (c : Dev nD) :
    Pipeline.withArrays (cfgs 0).spec c (V0 m c) (fun w => (dats m 0 c).arrAt w (cfgs 0).N) (Proc.devRef .tc main_v3_1) = attn3 m c :=
  (Pipeline.withArrays_arr (cfgs 0).spec launch0.win.arr_inj c (V0 m c) (fun w => (dats m 0 c).arrAt w (cfgs 0).N) 4).trans (final_attn m c)

/-- The region's context array as the lines after the region find it. -/
theorem region_ctx (c : Dev nD) :
    Pipeline.withArrays (cfgs 0).spec c (V0 m c) (fun w => (dats m 0 c).arrAt w (cfgs 0).N) (Proc.devRef .tc main_v3_0) = ctx3 m c :=
  (Pipeline.withArrays_arr (cfgs 0).spec launch0.win.arr_inj c (V0 m c) (fun w => (dats m 0 c).arrAt w (cfgs 0).N) 3).trans (final_ctx m c)

/-- The second result: the [4, 16, 2048, 2048] array of attention weights of the arguments. -/
theorem tail_attn (c : Dev nD) :
    Pipeline.afterTail₀ cfgs (dats m) 0 (V0 m) [hostOps1] c main_v5 = attnArr (m ((c : Thread nD τ).loc main_arg0)) (m ((c : Thread nD τ).loc main_arg1)) := by
  unfold Pipeline.afterTail₀
  show StableHlo.after hostOps1 _ (Proc.devRef .tc main_v5) = _
  after_results
  funext i
  obtain ⟨b, h, q, k, rfl⟩ : ∃ (b : Fin 4) (h : Fin 16) (q k : Fin 2048), i = ix4 b h q k := ⟨i 0, i 1, i 2, i 3, eq_ix4 i⟩
  show shapeCast S4x16x2048x2048 (Pipeline.withArrays (cfgs 0).spec c (V0 m c) (fun w => (dats m 0 c).arrAt w (cfgs 0).N)
    (Proc.devRef .tc main_v3_1)) shapeCasts_S64x2048x2048_S4x16x2048x2048 (ix4 b h q k) = _
  refine (shapeCast_split_heads_apply (n := 2048) (m := 2048) _ shapeCasts_S64x2048x2048_S4x16x2048x2048 b h q k).trans ?_
  refine (congrFun (region_attn m c) (ix3 (mergedHead b h) q k)).trans ?_
  rw [attn3_ix3, attn3At_merged, attnArr_ix4]

/-- The first result: the [4, 16, 2048, 64] array of context vectors of the arguments. -/
theorem tail_ctx (c : Dev nD) :
    Pipeline.afterTail₀ cfgs (dats m) 0 (V0 m) [hostOps1] c main_v4 = ctxArr (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  funext i
  obtain ⟨b, h, q, d, rfl⟩ : ∃ (b : Fin 4) (h : Fin 16) (q : Fin 2048) (d : Fin 64), i = ix4 b h q d := ⟨i 0, i 1, i 2, i 3, eq_ix4 i⟩
  show shapeCast S4x16x2048x64 (Pipeline.withArrays (cfgs 0).spec c (V0 m c) (fun w => (dats m 0 c).arrAt w (cfgs 0).N)
    (Proc.devRef .tc main_v3_0)) shapeCasts_S64x2048x64_S4x16x2048x64 (ix4 b h q d) = _
  refine (shapeCast_split_heads_apply (n := 2048) (m := 64) _ shapeCasts_S64x2048x64_S4x16x2048x64 b h q d).trans ?_
  refine (congrFun (region_ctx m c) (ix3 (mergedHead b h) q d)).trans ?_
  rw [ctx3_ix3, ctx3At_merged, ctxArr_ix4]

/-! ## The run -/

/-- Every weakly fair execution of the idealized kernel terminates, without a fault, with its two results at the
    specification's arrays of its arguments, and the arguments unchanged. -/
theorem run : θ_run defs (onTc (τ := τ) (main (F := Ideal))) ⟨m, fun _ => 0, ρ⟩ fun r => ∀ c : Dev nD,
      r.2.mem ((c.tc : Thread nD τ).loc main_v4) = ctxArr (m ((c : Thread nD τ).loc main_arg0)) (m ((c : Thread nD τ).loc main_arg1)) (m ((c : Thread nD τ).loc main_arg2))
      ∧ r.2.mem ((c.tc : Thread nD τ).loc main_v5) = attnArr (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (tail_ctx m c),
      ((h c).2 main_v5 (Pipeline.mem_restRefs_of main_v5 (by decide) (by decide))).trans (tail_attn m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference computes the specification.

  jnp's einsum / softmax / einsum prints as: the batched product Q·Kᵀ; the row maximum started from −∞, and once more
  the larger of −∞ and it; the difference, its exponential, the row sum started from 0, the quotient; the batched
  product with V. Entry by entry this is `attnAt` and `ctxAt`: the second maximum with −∞ changes nothing, and the sum
  started from 0 is the sum.
-/
import proofs.«164368_j76295799046779_2_alg».proof.Proof.Gen.ReferenceIdeal.Read
import proofs.«164368_j76295799046779_2_alg».proof.Proof.Spec
import Idealize.ShloMosaic.Lib.ValueIdx
import Idealize.ShloMosaic.PureOps.Ideal.Laws

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read Cert.Attn

variable (Q K V : Arr4)

/-- Q·Kᵀ at (b, h, q, k): the inner product of query row q and key row k of head (b, h). -/
theorem scores_apply (b : Fin 4) (h : Fin 16) (q k : Fin 2048) :
    val_main_v0 (F := Ideal) Q K (ix4 b h q k) = score (headRow Q b h q) (head K b h) k := by
  rw [val_main_v0_apply]
  unfold score headRow head
  refine Finset.sum_congr rfl fun d _ => ?_
  have el : lidx_main_v0 (ix4 b h q k) d = ix4 b h q d :=
    funext fun a => Fin.ext (by match a with | ⟨0, _⟩ => rfl | ⟨1, _⟩ => rfl | ⟨2, _⟩ => rfl | ⟨3, _⟩ => rfl)
  have er : ridx_main_v0 (ix4 b h q k) d = ix4 b h k d :=
    funext fun a => Fin.ext (by match a with | ⟨0, _⟩ => rfl | ⟨1, _⟩ => rfl | ⟨2, _⟩ => rfl | ⟨3, _⟩ => rfl)
  rw [el, er]

/-- The row of scores of query row q of head (b, h). -/
theorem scores_row (b : Fin 4) (h : Fin 16) (q : Fin 2048) :
    (fun k => val_main_v0 (F := Ideal) Q K (ix4 b h q k)) = score (headRow Q b h q) (head K b h) :=
  funext fun k => scores_apply Q K b h q k

/-- The row maximum: the fold of `max` from −∞ over the row. -/
theorem rowmax_apply (b : Fin 4) (h : Fin 16) (q : Fin 2048) :
    val_main_v1 (F := Ideal) Q K (ix3 b h q) = peak (score (headRow Q b h q) (head K b h)) := by
  unfold val_main_v1
  have hR : S4x16x2048x2048.Reduces [3] S4x16x2048 := by decide
  refine (Host.reduce_eq_fold_single (FloatOps.maximumf (F := Ideal) (φ := .f32)) (val_main_v0 (F := Ideal) Q K)
    (val_main_cst (F := Ideal)) reducesTo_S4x16x2048x2048_S4x16x2048_d3 hR h_S_ (ix3 b h q)).trans ?_
  rw [← scores_row Q K b h q]
  unfold peak Cert.Attn.floor
  exact congrArg (fun f => (Finset.univ : Finset (Fin 2048)).fold max (Ideal.ofBits .f32 0xFF800000#32) f)
    (funext fun k => congrArg (val_main_v0 (F := Ideal) Q K)
      (funext fun a => Fin.ext (by match a with | ⟨0, _⟩ => rfl | ⟨1, _⟩ => rfl | ⟨2, _⟩ => rfl | ⟨3, _⟩ => rfl)))

/-- The larger of −∞ and the row maximum is the row maximum. -/
theorem rowmax2_apply (b : Fin 4) (h : Fin 16) (q : Fin 2048) :
    val_main_v3 (F := Ideal) Q K (ix3 b h q) = peak (score (headRow Q b h q) (head K b h)) := by
  rw [val_main_v3_apply, rowmax_apply]
  exact max_floor_peak _

/-- The row maximum beside every entry of its row. -/
theorem rowmaxB_apply (b : Fin 4) (h : Fin 16) (q k : Fin 2048) :
    val_main_v5 (F := Ideal) Q K (ix4 b h q k) = peak (score (headRow Q b h q) (head K b h)) := by
  rw [val_main_v5_apply, val_main_v4_apply]
  have e : idx_main_v4 (idx_main_v5 (ix4 b h q k)) = ix3 b h q :=
    funext fun a => Fin.ext (by match a with | ⟨0, _⟩ => rfl | ⟨1, _⟩ => rfl | ⟨2, _⟩ => rfl)
  rw [e, rowmax2_apply]

/-- The unnormalised weights. -/
theorem weights_apply (b : Fin 4) (h : Fin 16) (q k : Fin 2048) :
    val_main_v7 (F := Ideal) Q K (ix4 b h q k) = weight (score (headRow Q b h q) (head K b h)) k := by
  rw [val_main_v7_apply, val_main_v6_apply, scores_apply, rowmaxB_apply]
  rfl

/-- The row sum started from 0 is the row's normaliser. -/
theorem mass_apply (b : Fin 4) (h : Fin 16) (q : Fin 2048) :
    val_main_v8 (F := Ideal) Q K (ix3 b h q) = mass (score (headRow Q b h q) (head K b h)) := by
  rw [val_main_v8_apply]
  have z : val_main_cst_1 (F := Ideal) (Shape.Idx.first h_S_) = 0 := Ideal.ofBits_zero_f32
  rw [z, zero_add]
  unfold mass
  refine Finset.sum_congr rfl fun k _ => ?_
  have e : idx_main_v8 (ix3 b h q) k = ix4 b h q k :=
    funext fun a => Fin.ext (by match a with | ⟨0, _⟩ => rfl | ⟨1, _⟩ => rfl | ⟨2, _⟩ => rfl | ⟨3, _⟩ => rfl)
  rw [e, weights_apply]

/-- The normaliser beside every entry of its row. -/
theorem massB_apply (b : Fin 4) (h : Fin 16) (q k : Fin 2048) :
    val_main_v10 (F := Ideal) Q K (ix4 b h q k) = mass (score (headRow Q b h q) (head K b h)) := by
  rw [val_main_v10_apply, val_main_v9_apply]
  have e : idx_main_v9 (idx_main_v10 (ix4 b h q k)) = ix3 b h q :=
    funext fun a => Fin.ext (by match a with | ⟨0, _⟩ => rfl | ⟨1, _⟩ => rfl | ⟨2, _⟩ => rfl)
  rw [e, mass_apply]

/-- The reference's attention weights, entry by entry. -/
theorem attn_apply (b : Fin 4) (h : Fin 16) (q k : Fin 2048) :
    val_main_v11 (F := Ideal) Q K (ix4 b h q k) = attnAt Q K b h q k := by
  rw [val_main_v11_apply, weights_apply, massB_apply]
  rfl

/-- The reference's second result is the array of attention weights. -/
theorem attn_eq : val_main_v11 (F := Ideal) Q K = attnArr Q K := by
  funext i
  obtain ⟨b, h, q, k, rfl⟩ : ∃ (b : Fin 4) (h : Fin 16) (q k : Fin 2048), i = ix4 b h q k := ⟨i 0, i 1, i 2, i 3, eq_ix4 i⟩
  rw [attn_apply, attnArr_ix4]

/-- The reference's context vectors, entry by entry. -/
theorem ctx_apply (b : Fin 4) (h : Fin 16) (q : Fin 2048) (d : Fin 64) :
    val_main_v12 (F := Ideal) Q K V (ix4 b h q d) = ctxAt Q K V b h q d := by
  rw [val_main_v12_apply]
  unfold ctxAt ctx
  refine Finset.sum_congr rfl fun k _ => ?_
  have el : lidx_main_v12 (ix4 b h q d) k = ix4 b h q k :=
    funext fun a => Fin.ext (by match a with | ⟨0, _⟩ => rfl | ⟨1, _⟩ => rfl | ⟨2, _⟩ => rfl | ⟨3, _⟩ => rfl)
  have er : ridx_main_v12 (ix4 b h q d) k = ix4 b h k d :=
    funext fun a => Fin.ext (by match a with | ⟨0, _⟩ => rfl | ⟨1, _⟩ => rfl | ⟨2, _⟩ => rfl | ⟨3, _⟩ => rfl)
  rw [el, er, attn_apply]
  rfl

/-- The reference's first result is the array of context vectors. -/
theorem ctx_eq : val_main_v12 (F := Ideal) Q K V = ctxArr Q K V := by
  funext i
  obtain ⟨b, h, q, d, rfl⟩ : ∃ (b : Fin 4) (h : Fin 16) (q : Fin 2048) (d : Fin 64), i = ix4 b h q d := ⟨i 0, i 1, i 2, i 3, eq_ix4 i⟩
  rw [ctx_apply, ctxArr_ix4]

end Cert.ReferenceIdeal.RefValue

end
-- ==== Proof.lean ====
/-
  Dense attention (the scores are not scaled) over Q, K, V : f32[4, 16, 2048, 64]: the Pallas kernel against its jnp reference.

  Both programs compute, for every batch entry b, head h and query row q,
      attn[b, h, q, ·] = softmax over k of ⟨Q[b, h, q, ·], K[b, h, k, ·]⟩,      ctx[b, h, q, ·] = ∑_k attn[b, h, q, k] · V[b, h, k, ·],
  the softmax taken as exp (score − row maximum) over its row sum. The reference does so with two batched matrix
  products around jax's softmax. The kernel views the arrays as 64 heads, walks a 64 × 4 grid (head, block of 512
  query rows), keeps the head's K and V (cast to bf16) in two buffers across the head's four points, and per point
  forms the 512 × 2048 scores, their row-wise softmax and the 512 × 64 context block.

  On the extended reals the casts are the identity, the matrix products are sums over the contracted index whatever
  the accumulation order, and the reference's second maximum with −∞ changes nothing; so both programs' results are the
  same two arrays (`attnArr`, `ctxArr` of the specification), index by index. No property of the inputs is used.

  The three frames: the two kernels' are the generated frame runs; the reference's is its run with the results dropped.
  The idealization rewrote no operation, so there is nothing to preserve.
-/
import proofs.«164368_j76295799046779_2_alg».proof.Defs
import proofs.«164368_j76295799046779_2_alg».proof.Proof.Gen.Kernel
import proofs.«164368_j76295799046779_2_alg».proof.Proof.Gen.Kernel.Skeleton
import proofs.«164368_j76295799046779_2_alg».proof.Proof.Gen.Kernel.Launch
import proofs.«164368_j76295799046779_2_alg».proof.Proof.Gen.Kernel.Points
import proofs.«164368_j76295799046779_2_alg».proof.Proof.Gen.Kernel.Frame
import proofs.«164368_j76295799046779_2_alg».proof.Proof.Gen.KernelIdeal
import proofs.«164368_j76295799046779_2_alg».proof.Proof.Gen.KernelIdeal.Skeleton
import proofs.«164368_j76295799046779_2_alg».proof.Proof.Gen.KernelIdeal.Launch
import proofs.«164368_j76295799046779_2_alg».proof.Proof.Gen.KernelIdeal.Points
import proofs.«164368_j76295799046779_2_alg».proof.Proof.Gen.KernelIdeal.Frame
import proofs.«164368_j76295799046779_2_alg».proof.Proof.Gen.ReferenceIdeal
import proofs.«164368_j76295799046779_2_alg».proof.Proof.Gen.ReferenceIdeal.Run
import proofs.«164368_j76295799046779_2_alg».proof.Proof.Gen.ReferenceIdeal.Read
import proofs.«164368_j76295799046779_2_alg».proof.Proof.Gen.Pre_finite_inputs
import proofs.«164368_j76295799046779_2_alg».proof.Proof.Result
import proofs.«164368_j76295799046779_2_alg».proof.Proof.RefValue
import Idealize.ShloMosaic.Adequacy
import Idealize.ShloMosaic.Init

noncomputable section

namespace Cert.Proof

open Idealize.ShloMosaic Idealize.SL.Sem Cert.Attn

/-- The word-level kernel runs and leaves its arguments as they were. -/
theorem frame_kernel : Cert.frame_Kernel :=
  fun m ρ _ => Cert.Kernel.Gen.frame m ρ

/-- So does its idealization. -/
theorem frame_kernelIdeal : Cert.frame_KernelIdeal :=
  fun m ρ _ => Cert.KernelIdeal.Gen.frame m ρ

/-- The reference runs and leaves its arguments as they were: its run, the two results dropped. -/
theorem frame_referenceIdeal : Cert.frame_ReferenceIdeal :=
  fun m ρ _ => (θ_run Cert.ReferenceIdeal.defs _ _).mono (fun _ h c => (h c).2.2) (Cert.ReferenceIdeal.Value.run (F := Ideal) m ρ)

/-- From memories that agree on Q, K and V both idealized programs end with the context array and the array of
    attention weights of the specification. -/
theorem algebraic : Cert.algebraic_KernelIdeal_ReferenceIdeal := by
  intro m ρ m' ρ' _ hagree
  refine ⟨fun c => ctxArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => attnArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)), Cert.KernelIdeal.Result.run m ρ, ?_⟩
  refine (θ_run Cert.ReferenceIdeal.defs _ _).mono (fun _ h c => ⟨?_, ?_, (h c).2.2⟩)
    (Cert.ReferenceIdeal.Value.run (F := Ideal) m' ρ')
  · refine (h c).1.trans ?_
    rw [(hagree c).1, (hagree c).2.1, (hagree c).2.2]
    exact (Cert.ReferenceIdeal.Read.val_main_v12_eq _ _ _).trans (Cert.ReferenceIdeal.RefValue.ctx_eq _ _ _)
  · refine (h c).2.1.trans ?_
    rw [(hagree c).1, (hagree c).2.1]
    exact (Cert.ReferenceIdeal.Read.val_main_v11_eq _ _).trans (Cert.ReferenceIdeal.RefValue.attn_eq _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
